-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S800000x128 : Shape := ⟨2, ![800000, 128]⟩
abbrev S1x128 : Shape := ⟨2, ![1, 128]⟩
abbrev S50000x64 : Shape := ⟨2, ![50000, 64]⟩
abbrev S5000x1 : Shape := ⟨2, ![5000, 1]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 79
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S800000, .f32⟩
  | .hbm, ⟨39, _⟩ => ⟨S800000x1, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S800000x128, .f32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S1x128, .f32⟩
  | .hbm, ⟨61, _⟩ => ⟨S50000x64, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x64, .f32⟩
  | .hbm, ⟨71, _⟩ => ⟨S800000x64, .f32⟩
  | .hbm, ⟨72, _⟩ => ⟨S800000x64, .f32⟩
  | .hbm, ⟨73, _⟩ => ⟨S_, .f32⟩
  | .hbm, ⟨74, _⟩ => ⟨S50000x64, .f32⟩
  | .hbm, ⟨75, _⟩ => ⟨S800000x1, .i32⟩
  | .hbm, ⟨76, _⟩ => ⟨S50000x64, .f32⟩
  | .hbm, ⟨77, _⟩ => ⟨S1x64, .f32⟩
  | .hbm, ⟨78, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_9 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S800000_S800000x1 : S800000.ShapeCasts S800000x1
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S1x800000, .i32⟩
  | 7 => ⟨S800000, .i32⟩
  | 8 => ⟨S1x800000, .i32⟩
  | 9 => ⟨S800000, .i32⟩
  | 10 => ⟨S50000x128, .f32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .f32⟩
  | 20 => ⟨S50000, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S800000x1, .f32⟩
  | 50 => ⟨S800000x128, .f32⟩
  | 51 => ⟨S800000x128, .f32⟩
  | 52 => ⟨S_, .f32⟩
  | 53 => ⟨S50000x128, .f32⟩
  | 54 => ⟨S800000x1, .i32⟩
  | 55 => ⟨S50000x128, .f32⟩
  | 56 => ⟨S_, .f32⟩
  | 57 => ⟨S50000, .f32⟩
  | 58 => ⟨S50000, .f32⟩
  | 59 => ⟨S50000x1, .f32⟩
  | 60 => ⟨S50000x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S1x800000, .i32⟩
  | 70 => ⟨S800000, .i32⟩
  | 71 => ⟨S1x800000, .i32⟩
  | 72 => ⟨S800000, .i32⟩
  | 73 => ⟨S50000x64, .f32⟩
  | 74 => ⟨S_, .f32⟩
  | 75 => ⟨S800000, .f32⟩
  | 76 => ⟨S_, .f32⟩
  | 77 => ⟨S50000, .f32⟩
  | 78 => ⟨S800000x1, .i32⟩
  | 79 => ⟨S50000, .f32⟩
  | 80 => ⟨S_, .f32⟩
  | 81 => ⟨S50000, .f32⟩
  | 82 => ⟨S50000, .f32⟩
  | 83 => ⟨S50000, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000, .f32⟩
  | 102 => ⟨S800000, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x64, .f32⟩
  | 112 => ⟨S800000x1, .f32⟩
  | 113 => ⟨S800000x64, .f32⟩
  | 114 => ⟨S800000x64, .f32⟩
  | 115 => ⟨S_, .f32⟩
  | 116 => ⟨S50000x64, .f32⟩
  | 117 => ⟨S800000x1, .i32⟩
  | 118 => ⟨S50000x64, .f32⟩
  | 119 => ⟨S_, .f32⟩
  | 120 => ⟨S50000, .f32⟩
  | 121 => ⟨S50000, .f32⟩
  | 122 => ⟨S50000x1, .f32⟩
  | 123 => ⟨S50000x64, .f32⟩
  | 124 => ⟨S50000x64, .f32⟩
  | 125 => ⟨S50000x64, .f32⟩
  | 126 => ⟨S1x64, .f32⟩
  | 127 => ⟨S50000x64, .f32⟩
  | _ => ⟨S50000x128, .f32⟩

abbrev hbmTy0_1 (i : Nat) : BufTy := match i % 128 with
  | 0 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_12 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_14 : Ref sig .tc := ⟨.hbm, 93, rfl⟩
abbrev main_v69 : Ref sig .tc := ⟨.hbm, 94, rfl⟩
abbrev main_v70 : Ref sig .tc := ⟨.hbm, 95, rfl⟩
abbrev main_c_15 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_16 : Ref sig .tc := ⟨.hbm, 103, rfl⟩
abbrev main_v77 : Ref sig .tc := ⟨.hbm, 104, rfl⟩
abbrev main_v78 : Ref sig .tc := ⟨.hbm, 105, rfl⟩
abbrev main_c_17 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_18 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_19 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.RunValue.lean ====
/-
  The idealized kernel's run with its buffers read at the end. The program is three grid regions with stretches of
  host operations before each; the contents of the TensorCore's buffers at the seven boundaries are the fold
  `W0 … W6` (launch memory; after the first stretch; after region 0's write-backs; after the second stretch; after
  region 1's write-backs; after the third stretch; after region 2's write-backs). Every weakly fair execution
  terminates without a fault in a state where every buffer that outlives the regions holds the last boundary's
  contents `W6` — in particular the result buffer and the six argument buffers.
-/
import proofs.«163376_j23003844838068_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every buffer that outlives the
    regions at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The result buffer and the argument buffers are among the buffers that outlive the regions: the result ends at
    the last boundary's contents, each argument as launched. -/
theorem run_out : θ_run defs (onTc (τ := τ) (main (F := F))) ⟨m, fun _ => 0, ρ⟩ (fun r => ∀ c : Dev nD,
      r.2.mem ((c.tc : Thread nD τ).loc main_v58) = W6 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v58 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)
    (run_all m ρ)

end Cert.KernelIdeal.RunValue

end
-- ==== Proof.HostGlue.lean ====
/-
  The host side of the idealized kernel between its regions, as functions of the argument arrays.

  From the edge list (a 2×E integer array: row 0 the sources, row 1 the destinations) the program computes, once:
  the degree of a node (the number of edges arriving at it, plus one for the self loop), its inverse as a column,
  and for every edge the weight rsqrt(deg src) · rsqrt(deg dst) as a column (a negative node number is read from
  the end, as array indexing does). Between regions it forms the neighbour sum of a feature array `h`: row `dst e`
  collects `h[src e, ·] · weight e` over the edges `e`. Each region then finds, at its entry, arrays that are these
  functions of the arguments and of the earlier regions' results.
-/
import proofs.«163376_j23003844838068_2_alg».proof.Proof.Gen.KernelIdeal.Frame

set_option maxRecDepth 16384

noncomputable section

namespace Cert.KernelIdeal.Glue

open Idealize.ShloMosaic Idealize.ShloMosaic.TcCoe Idealize.SL.Sem Idealize.ShloMosaic.StableHlo
open Cert.KernelIdeal Cert.KernelIdeal.Gen

variable {F : FTy → Type} [FloatOps F]

/-- The edges' source nodes: row 0 of the edge list. -/
def srcV (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The edges' destination nodes: row 1 of the edge list. -/
def dstV (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- A node number read as an array index: a negative one counts from the end (50000 is added). -/
def wrapV (v : (⟨S800000, .i32⟩ : BufTy).Contents (Elt F)) : (⟨S800000, .i32⟩ : BufTy).Contents (Elt F) :=
  select (cmpi .slt v (broadcastInDim S800000 ![] bcast_S_S800000 (constantI S_ 32 0#32)))
    (addi v (broadcastInDim S800000 ![] bcast_S_S800000 (constantI S_ 32 50000#32))) v

/-- A vector of node numbers as a one-column matrix of indices. -/
def colI (v : (⟨S800000, .i32⟩ : BufTy).Contents (Elt F)) : (⟨S800000x1, .i32⟩ : BufTy).Contents (Elt F) :=
  broadcastInDim S800000x1 ![0] bcast_S800000_S800000x1_0 v

/-- The degree of every node: one per edge arriving at it, plus one. -/
def degV (e : (⟨S2x800000, .i32⟩ : BufTy).Contents (Elt F)) : (⟨S50000, .f32⟩ : BufTy).Contents (Elt F) :=
  addf (Host.scatterAdd scatter_S50000_S800000x1_S800000_n_0_0_1
      (broadcastInDim S50000 ![] bcast_S_S50000 (constant S_ .f32 0x00000000#32))
      (colI (dstV e))
      (broadcastInDim S800000 ![] bcast_S_S800000 (constant S_ .f32 0x3F800000#32)))
    (broadcastInDim S50000 ![] bcast_S_S50000 (constant S_ .f32 0x3F800000#32))

/-- The weight of every edge: rsqrt(deg src) · rsqrt(deg dst). -/
def normV (e : (⟨S2x800000, .i32⟩ : BufTy).Contents (Elt F)) : (⟨S800000, .f32⟩ : BufTy).Contents (Elt F) :=
  mulf (Host.gather gather_S50000_S800000x1_S800000_n_0_n_n_0_1_1 (Host.rsqrt (degV e)) (colI (wrapV (srcV e))))
    (Host.gather gather_S50000_S800000x1_S800000_n_0_n_n_0_1_1 (Host.rsqrt (degV e)) (colI (wrapV (dstV e))))

/-- The inverse degree of every node. -/
def invV (e : (⟨S2x800000, .i32⟩ : BufTy).Contents (Elt F)) : (⟨S50000, .f32⟩ : BufTy).Contents (Elt F) :=
  Host.divf (broadcastInDim S50000 ![] bcast_S_S50000 (constant S_ .f32 0x3F800000#32)) (degV e)

/-- The neighbour sum of a 128-feature array, the edge weights given as a column. -/
def agg128 (h : (⟨S50000x128, .f32⟩ : BufTy).Contents (Elt F)) (e : (⟨S2x800000, .i32⟩ : BufTy).Contents (Elt F))
    (wcol : (⟨S800000x1, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (colI (dstV e))
    (mulf (Host.gather gather_S50000x128_S800000x1_S800000x128_1_0_n_n_0_1_1128 h (colI (wrapV (srcV e))))
      (broadcastInDim S800000x128 ![0, 1] bcast_S800000x1_S800000x128_0_1 wcol))

/-- The neighbour sum of a 64-feature array, the edge weights given as a column. -/
def agg64 (h : (⟨S50000x64, .f32⟩ : BufTy).Contents (Elt F)) (e : (⟨S2x800000, .i32⟩ : BufTy).Contents (Elt F))
    (wcol : (⟨S800000x1, .f32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (colI (dstV e))
    (mulf (Host.gather gather_S50000x64_S800000x1_S800000x64_1_0_n_n_0_1_164 h (colI (wrapV (srcV e))))
      (broadcastInDim S800000x64 ![0, 1] bcast_S800000x1_S800000x64_0_1 wcol))

variable (m : (ℓ : Loc nD τ sig) → Buf (Elt F) ℓ) (ρ : Dev nD → PrngReg)

/-! ## After the first stretch of host operations (region 0's entry) -/

set_option maxHeartbeats 4000000 in
theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
set_option maxHeartbeats 4000000 in
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
set_option maxHeartbeats 4000000 in
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
set_option maxHeartbeats 4000000 in
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
set_option maxHeartbeats 4000000 in
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
set_option maxHeartbeats 4000000 in
/-- The source vector. -/
theorem W1_v1 (c : Dev nD) : W1 m ρ c (Proc.devRef .tc main_v1) = srcV (m ((c : Thread nD τ).loc main_arg1)) := by
  show StableHlo.after hostOps0 (W0 m ρ c) (Proc.devRef .tc main_v1) = _
  after_results_simp <;> rfl
set_option maxHeartbeats 4000000 in
/-- The destination vector. -/
theorem W1_v3 (c : Dev nD) : W1 m ρ c (Proc.devRef .tc main_v3) = dstV (m ((c : Thread nD τ).loc main_arg1)) := by
  show StableHlo.after hostOps0 (W0 m ρ c) (Proc.devRef .tc main_v3) = _
  after_results_simp <;> rfl
set_option maxHeartbeats 4000000 in
/-- The edge weights, reshaped to a column. -/
theorem W1_v26 (c : Dev nD) :
    W1 m ρ c (Proc.devRef .tc main_v26) = shapeCast _ (normV (m ((c : Thread nD τ).loc main_arg1))) shapeCasts_S800000_S800000x1 := by
  show StableHlo.after hostOps0 (W0 m ρ c) (Proc.devRef .tc main_v26) = _
  after_results_simp <;> rfl
set_option maxHeartbeats 4000000 in
/-- The inverse degrees, reshaped to a column. -/
theorem W1_v29 (c : Dev nD) :
    W1 m ρ c (Proc.devRef .tc main_v29) = shapeCast _ (invV (m ((c : Thread nD τ).loc main_arg1))) shapeCasts_S50000_S50000x1 := by
  show StableHlo.after hostOps0 (W0 m ρ c) (Proc.devRef .tc main_v29) = _
  after_results_simp <;> rfl

/-- Region 0 finds the features and the first weight matrix as launched. -/
theorem V1_arg0 (c : Dev nD) : V1 m ρ c main_arg0 = m ((c : Thread nD τ).loc main_arg0) := W1_arg0 m ρ c
theorem V1_arg2 (c : Dev nD) : V1 m ρ c main_arg2 = m ((c : Thread nD τ).loc main_arg2) := W1_arg2 m ρ c

/-! ## After region 0: nothing but its output array has changed -/

theorem W2_v1 (c : Dev nD) : W2 m ρ c (Proc.devRef .tc main_v1) = srcV (m ((c : Thread nD τ).loc main_arg1)) :=
  (W2_of_ne m ρ c main_v1 (by decide)).trans (W1_v1 m ρ c)
theorem W2_v3 (c : Dev nD) : W2 m ρ c (Proc.devRef .tc main_v3) = dstV (m ((c : Thread nD τ).loc main_arg1)) :=
  (W2_of_ne m ρ c main_v3 (by decide)).trans (W1_v3 m ρ c)
theorem W2_v26 (c : Dev nD) :
    W2 m ρ c (Proc.devRef .tc main_v26) = shapeCast _ (normV (m ((c : Thread nD τ).loc main_arg1))) shapeCasts_S800000_S800000x1 :=
  (W2_of_ne m ρ c main_v26 (by decide)).trans (W1_v26 m ρ c)
theorem W2_v29 (c : Dev nD) :
    W2 m ρ c (Proc.devRef .tc main_v29) = shapeCast _ (invV (m ((c : Thread nD τ).loc main_arg1))) shapeCasts_S50000_S50000x1 :=
  (W2_of_ne m ρ c main_v29 (by decide)).trans (W1_v29 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)

/-! ## After the second stretch (region 1's entry) -/

set_option maxHeartbeats 4000000 in
/-- Region 1 finds the neighbour sum of region 0's output. -/
theorem V3_v42 (c : Dev nD) :
    V3 m ρ c main_v42 = agg128 (W2 m ρ c (Proc.devRef .tc main_v30)) (m ((c : Thread nD τ).loc main_arg1))
      (shapeCast _ (normV (m ((c : Thread nD τ).loc main_arg1))) shapeCasts_S800000_S800000x1) := by
  show StableHlo.after hostOps1 (W2 m ρ c) (Proc.devRef .tc main_v42) = _
  after_results_simp
  rw [W2_v1, W2_v3, W2_v26]
  rfl
set_option maxHeartbeats 4000000 in
/-- Region 1 finds region 0's output. -/
theorem V3_v30 (c : Dev nD) : V3 m ρ c main_v30 = W2 m ρ c (Proc.devRef .tc main_v30) := by
  show StableHlo.after hostOps1 (W2 m ρ c) (Proc.devRef .tc main_v30) = _
  after_results_simp <;> rfl
set_option maxHeartbeats 4000000 in
/-- Region 1 finds the column of inverse degrees. -/
theorem V3_v29 (c : Dev nD) :
    V3 m ρ c main_v29 = shapeCast _ (invV (m ((c : Thread nD τ).loc main_arg1))) shapeCasts_S50000_S50000x1 := by
  show StableHlo.after hostOps1 (W2 m ρ c) (Proc.devRef .tc main_v29) = _
  after_results_simp
  exact W2_v29 m ρ c
set_option maxHeartbeats 4000000 in
/-- Region 1 finds the first bias as a row. -/
theorem V3_v43 (c : Dev nD) :
    V3 m ρ c main_v43 = shapeCast _ (m ((c : Thread nD τ).loc main_arg3)) shapeCasts_S128_S1x128 := by
  show StableHlo.after hostOps1 (W2 m ρ c) (Proc.devRef .tc main_v43) = _
  after_results_simp
  rw [W2_arg3]
  rfl
set_option maxHeartbeats 4000000 in
/-- Region 1 finds the second weight matrix as launched. -/
theorem V3_arg4 (c : Dev nD) : V3 m ρ c main_arg4 = m ((c : Thread nD τ).loc main_arg4) := by
  show StableHlo.after hostOps1 (W2 m ρ c) (Proc.devRef .tc main_arg4) = _
  after_results_simp
  exact W2_arg4 m ρ c

set_option maxHeartbeats 4000000 in
theorem W3_v1 (c : Dev nD) : W3 m ρ c (Proc.devRef .tc main_v1) = srcV (m ((c : Thread nD τ).loc main_arg1)) := by
  show StableHlo.after hostOps1 (W2 m ρ c) (Proc.devRef .tc main_v1) = _
  after_results_simp
  exact W2_v1 m ρ c
set_option maxHeartbeats 4000000 in
theorem W3_v3 (c : Dev nD) : W3 m ρ c (Proc.devRef .tc main_v3) = dstV (m ((c : Thread nD τ).loc main_arg1)) := by
  show StableHlo.after hostOps1 (W2 m ρ c) (Proc.devRef .tc main_v3) = _
  after_results_simp
  exact W2_v3 m ρ c
set_option maxHeartbeats 4000000 in
theorem W3_v26 (c : Dev nD) :
    W3 m ρ c (Proc.devRef .tc main_v26) = shapeCast _ (normV (m ((c : Thread nD τ).loc main_arg1))) shapeCasts_S800000_S800000x1 := by
  show StableHlo.after hostOps1 (W2 m ρ c) (Proc.devRef .tc main_v26) = _
  after_results_simp
  exact W2_v26 m ρ c
set_option maxHeartbeats 4000000 in
theorem W3_arg5 (c : Dev nD) : W3 m ρ c (Proc.devRef .tc main_arg5) = m ((c : Thread nD τ).loc main_arg5) := by
  show StableHlo.after hostOps1 (W2 m ρ c) (Proc.devRef .tc main_arg5) = _
  after_results_simp
  exact W2_arg5 m ρ c

/-! ## After region 1: nothing but its output array has changed -/

theorem W4_v1 (c : Dev nD) : W4 m ρ c (Proc.devRef .tc main_v1) = srcV (m ((c : Thread nD τ).loc main_arg1)) :=
  (W4_of_ne m ρ c main_v1 (by decide)).trans (W3_v1 m ρ c)
theorem W4_v3 (c : Dev nD) : W4 m ρ c (Proc.devRef .tc main_v3) = dstV (m ((c : Thread nD τ).loc main_arg1)) :=
  (W4_of_ne m ρ c main_v3 (by decide)).trans (W3_v3 m ρ c)
theorem W4_v26 (c : Dev nD) :
    W4 m ρ c (Proc.devRef .tc main_v26) = shapeCast _ (normV (m ((c : Thread nD τ).loc main_arg1))) shapeCasts_S800000_S800000x1 :=
  (W4_of_ne m ρ c main_v26 (by decide)).trans (W3_v26 m ρ c)
theorem W4_arg5 (c : Dev nD) : W4 m ρ c (Proc.devRef .tc main_arg5) = m ((c : Thread nD τ).loc main_arg5) :=
  (W4_of_ne m ρ c main_arg5 (by decide)).trans (W3_arg5 m ρ c)
/-- The column of inverse degrees is one of region 1's own input arrays: it leaves it as it found it. -/
theorem W4_v29 (c : Dev nD) :
    W4 m ρ c (Proc.devRef .tc main_v29) = shapeCast _ (invV (m ((c : Thread nD τ).loc main_arg1))) shapeCasts_S50000_S50000x1 :=
  (W4_arr m ρ c 2).trans (((dat1 (V3 m ρ) c).arrAt_in 2 rfl _).trans ((A_eq1 (V3 m ρ) c 2).trans (V3_v29 m ρ c)))

/-! ## After the third stretch (region 2's entry) -/

set_option maxHeartbeats 4000000 in
/-- Region 2 finds the neighbour sum of region 1's output. -/
theorem V5_v56 (c : Dev nD) :
    V5 m ρ c main_v56 = agg64 (W4 m ρ c (Proc.devRef .tc main_v44)) (m ((c : Thread nD τ).loc main_arg1))
      (shapeCast _ (normV (m ((c : Thread nD τ).loc main_arg1))) shapeCasts_S800000_S800000x1) := by
  show StableHlo.after hostOps2 (W4 m ρ c) (Proc.devRef .tc main_v56) = _
  after_results_simp
  rw [W4_v1, W4_v3, W4_v26]
  rfl
set_option maxHeartbeats 4000000 in
/-- Region 2 finds region 1's output. -/
theorem V5_v44 (c : Dev nD) : V5 m ρ c main_v44 = W4 m ρ c (Proc.devRef .tc main_v44) := by
  show StableHlo.after hostOps2 (W4 m ρ c) (Proc.devRef .tc main_v44) = _
  after_results_simp <;> rfl
set_option maxHeartbeats 4000000 in
/-- Region 2 finds the column of inverse degrees. -/
theorem V5_v29 (c : Dev nD) :
    V5 m ρ c main_v29 = shapeCast _ (invV (m ((c : Thread nD τ).loc main_arg1))) shapeCasts_S50000_S50000x1 := by
  show StableHlo.after hostOps2 (W4 m ρ c) (Proc.devRef .tc main_v29) = _
  after_results_simp
  exact W4_v29 m ρ c
set_option maxHeartbeats 4000000 in
/-- Region 2 finds the second bias as a row. -/
theorem V5_v57 (c : Dev nD) :
    V5 m ρ c main_v57 = shapeCast _ (m ((c : Thread nD τ).loc main_arg5)) shapeCasts_S64_S1x64 := by
  show StableHlo.after hostOps2 (W4 m ρ c) (Proc.devRef .tc main_v57) = _
  after_results_simp
  rw [W4_arg5]
  rfl

end Cert.KernelIdeal.Glue

end
-- ==== Proof.Spec.lean ====
/-
  The three whole-array functions a two-layer graph convolution computes between its neighbour sums, over the
  extended reals and literal shapes (50000 nodes, 128 → 128 → 64 features).

  * `mm1 x w`      : the first feature transform, entry (p, q) = ∑ₖ x[p, k] · w[k, q].
  * `act a h d b`  : the first layer's combine and rectifier, entry (p, q) = max (a[p, q] + h[p, q] · d[p, 0] + b[0, q]) 0,
                     where `a` is the neighbour sum, `h` the transformed features, `d` the column of inverse degrees and
                     `b` the bias as a row.
  * `mm2 y w`      : the second feature transform, entry (p, q) = ∑ₖ y[p, k] · w[k, q].
  * `comb a h d b` : the second layer's combine, entry (p, q) = a[p, q] + h[p, q] · d[p, 0] + b[0, q].

  Each has a coordinate form (`…At`) that gives one entry from its row number and its column number. The rectifier's
  threshold is the value of the f32 word `0x00000000` at the ideal instance, which is zero.
-/
import Idealize.ShloMosaic.PureOps.Ideal
import Idealize.ShloMosaic.Lib.ValueIdx

noncomputable section

open scoped BigOperators

namespace Cert.Gcn

open Idealize.ShloMosaic Idealize.ShloMosaic.ValueIdx

abbrev Nx128 : Shape := ⟨2, ![50000, 128]⟩
abbrev Nx64 : Shape := ⟨2, ![50000, 64]⟩
abbrev Nx1 : Shape := ⟨2, ![50000, 1]⟩
abbrev R128 : Shape := ⟨2, ![1, 128]⟩
abbrev R64 : Shape := ⟨2, ![1, 64]⟩
abbrev W128x128 : Shape := ⟨2, ![128, 128]⟩
abbrev W128x64 : Shape := ⟨2, ![128, 64]⟩

/-- The rectifier's threshold: the f32 word of zero at the ideal instance. -/
abbrev zeroWord : EReal := Ideal.ofBits .f32 0x00000000#32

/-- Entry (p, q) of the first feature transform. -/
def mm1At (x : Nx128.Idx → EReal) (w : W128x128.Idx → EReal) (p : Fin 50000) (q : Fin 128) : EReal :=
  ∑ k : Fin 128, x (ix2 p k) * w (ix2 k q)

/-- The first feature transform `x · w`. -/
def mm1 (x : Nx128.Idx → EReal) (w : W128x128.Idx → EReal) : Nx128.Idx → EReal :=
  fun i => mm1At x w (i 0) (i 1)

/-- Entry (p, q) of the rectified first layer. -/
def actAt (a h : Nx128.Idx → EReal) (d : Nx1.Idx → EReal) (b : R128.Idx → EReal) (p : Fin 50000) (q : Fin 128) : EReal :=
  max (a (ix2 p q) + h (ix2 p q) * d (ix2 p (0 : Fin 1)) + b (ix2 (0 : Fin 1) q)) zeroWord

/-- The rectified first layer `max (a + h · d + b) 0`, `d` broadcast along rows and `b` along columns. -/
def act (a h : Nx128.Idx → EReal) (d : Nx1.Idx → EReal) (b : R128.Idx → EReal) : Nx128.Idx → EReal :=
  fun i => actAt a h d b (i 0) (i 1)

/-- Entry (p, q) of the second feature transform. -/
def mm2At (y : Nx128.Idx → EReal) (w : W128x64.Idx → EReal) (p : Fin 50000) (q : Fin 64) : EReal :=
  ∑ k : Fin 128, y (ix2 p k) * w (ix2 k q)

/-- The second feature transform `y · w`. -/
def mm2 (y : Nx128.Idx → EReal) (w : W128x64.Idx → EReal) : Nx64.Idx → EReal :=
  fun i => mm2At y w (i 0) (i 1)

/-- Entry (p, q) of the second layer's combine. -/
def combAt (a h : Nx64.Idx → EReal) (d : Nx1.Idx → EReal) (b : R64.Idx → EReal) (p : Fin 50000) (q : Fin 64) : EReal :=
  a (ix2 p q) + h (ix2 p q) * d (ix2 p (0 : Fin 1)) + b (ix2 (0 : Fin 1) q)

/-- The second layer's combine `a + h · d + b`. -/
def comb (a h : Nx64.Idx → EReal) (d : Nx1.Idx → EReal) (b : R64.Idx → EReal) : Nx64.Idx → EReal :=
  fun i => combAt a h d b (i 0) (i 1)

theorem mm1_ix2 (x : Nx128.Idx → EReal) (w : W128x128.Idx → EReal) (p : Fin 50000) (q : Fin 128) :
    mm1 x w (ix2 p q) = mm1At x w p q := rfl
theorem act_ix2 (a h : Nx128.Idx → EReal) (d : Nx1.Idx → EReal) (b : R128.Idx → EReal) (p : Fin 50000) (q : Fin 128) :
    act a h d b (ix2 p q) = actAt a h d b p q := rfl
theorem mm2_ix2 (y : Nx128.Idx → EReal) (w : W128x64.Idx → EReal) (p : Fin 50000) (q : Fin 64) :
    mm2 y w (ix2 p q) = mm2At y w p q := rfl
theorem comb_ix2 (a h : Nx64.Idx → EReal) (d : Nx1.Idx → EReal) (b : R64.Idx → EReal) (p : Fin 50000) (q : Fin 64) :
    comb a h d b (ix2 p q) = combAt a h d b p q := rfl

end Cert.Gcn

end
-- ==== Proof.Region0.lean ====
/-
  Region 0 (ten row blocks of 5000 nodes): each grid point multiplies its 5000×128 block of the features by the whole
  128×128 weight matrix into a zero accumulator. Block t of the output is rows 5000·t … 5000·t+4999 of the product, the
  ten blocks tile the 50000 rows, so the output array ends as the whole product.
-/
import proofs.«163376_j23003844838068_2_alg».proof.Proof.Gen.KernelIdeal.Frame
import proofs.«163376_j23003844838068_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The contraction record of the block product: one contracted axis of extent 128. -/
abbrev blockDot : DotDims S5000x128 S128x128 S5000x128 := dot_S5000x128_S128x128_S5000x128_1_0_0_1_n_n

/-- The left operand's index at output index i and contraction index k: row i₀ … -/
theorem lhs_row (i : S5000x128.Idx) (k : blockDot.contr.Idx) : (blockDot.lhsIdx i k 0).val = (i 0).val := by
  unfold DotDims.lhsIdx
  rw [dif_neg (show ¬(0 : Fin S5000x128.rank) ∈ blockDot.lhsBatch by decide),
    dif_pos (show (0 : Fin S5000x128.rank) ∈ blockDot.lhsNonContracting by decide)]
  rfl

/-- … and column k. -/
theorem lhs_col (i : S5000x128.Idx) (k : blockDot.contr.Idx) : (blockDot.lhsIdx i k 1).val = (k ⟨0, by decide⟩).val :=
  blockDot.lhsIdx_val_of_single rfl i k

/-- The right operand's index at output index i and contraction index k: row k … -/
theorem rhs_row (i : S5000x128.Idx) (k : blockDot.contr.Idx) : (blockDot.rhsIdx i k 0).val = (k ⟨0, by decide⟩).val :=
  blockDot.rhsIdx_val_of_single rfl i k

/-- … and column i₁. -/
theorem rhs_col (i : S5000x128.Idx) (k : blockDot.contr.Idx) : (blockDot.rhsIdx i k 1).val = (i 1).val := by
  unfold DotDims.rhsIdx
  rw [dif_neg (show ¬(1 : Fin S128x128.rank) ∈ blockDot.rhsBatch by decide),
    dif_pos (show (1 : Fin S128x128.rank) ∈ blockDot.rhsNonContracting by decide)]
  rfl

/-- Entry (p, q) of the body's payload: the inner product of row p of the feature block with column q of the weights. -/
theorem payload_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  refine (Ideal.matmul_constant_zero_apply blockDot none _ _ (ix2 p q)).trans ?_
  rw [← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact lhs_row _ _
    | ⟨1, _⟩ => exact (lhs_col _ _).trans hk)
  have er : blockDot.rhsIdx (ix2 p q) ((contrEquiv1 blockDot 128 rfl rfl).symm k) = ix2 k q := funext fun a => Fin.ext (by
    match a with
    | ⟨0, _⟩ => exact (rhs_row _ _).trans hk
    | ⟨1, _⟩ => exact rhs_col _ _)
  rw [truncf_apply, truncf_apply, el, er]

/-- The body's accesses start at the origin of their staging buffers. -/
theorem zero_offsets : (![0, 0] : Fin 2 → Nat) = fun _ => 0 := funext fun a => by fin_cases a <;> rfl

/-- The windows' index maps at each of the ten grid points: the feature block and the output block of point t are row
    block t (column block 0), and the weight matrix's block is (0, 0) at every point. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's feature block is row 5000·t + p of the feature array. -/
theorem feature_block_apply (c : Dev nD) (t : Fin cfg0.N) (p : Fin 5000) (k : Fin 128) (r : Fin 50000)
    (hr : r.val = 5000 * t.val + p.val) :
    (iblk0 V c 0 t : Vec Ideal S5000x128 .f32) (ix2 p k) = (V c main_arg0 : S50000x128.Idx → EReal) (ix2 r k) := by
  obtain ⟨e0, e1, -⟩ := block_index t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight window's block is the whole weight matrix at every point. -/
theorem weight_block_apply (c : Dev nD) (t : Fin cfg0.N) (k q : Fin 128) :
    (iblk0 V c 1 t : Vec Ideal S128x128 .f32) (ix2 k q) = (V c main_arg2 : S128x128.Idx → EReal) (ix2 k q) := by
  obtain ⟨-, -, e0, e1, -⟩ := block_index t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- Entry (p, q) of point t's output block sits at row 5000·t + p, column q of the output array. -/
theorem out_block_emb (t : Fin cfg0.N) (p : Fin 5000) (q : Fin 128) (r : Fin 50000) (hr : r.val = 5000 * t.val + p.val) :
    (((cfg0.win 2).blk t).view.emb (ix2 p q) : S50000x128.Idx) = ix2 r q := by
  obtain ⟨-, -, -, -, e0, e1⟩ := block_index t
  refine funext fun a => Fin.ext ?_
  match a with
  | ⟨0, _⟩ => show win0_2.index t (0 : Fin 2) * 5000 + 1 * p.val = r.val; omega
  | ⟨1, _⟩ => show win0_2.index t (1 : Fin 2) * 128 + 1 * q.val = q.val; omega

/-- What point t writes back is block t of the product of the two arrays the region reads. -/
theorem flushed_eq (c : Dev nD) (t : Fin cfg0.N) :
    (dat0 V c).flushed 2 t = ((cfg0.win 2).blk t).view.read (Elt Ideal) (Cert.Gcn.mm1 (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  refine funext fun (j : S5000x128.Idx) => ?_
  obtain ⟨p, q, rfl⟩ : ∃ (p : Fin 5000) (q : Fin 128), j = ix2 p q := ⟨j 0, j 1, eq_ix2 j⟩
  have hN : cfg0.N = 10 := N_0
  have ht : t.val < 10 := hN ▸ t.isLt
  obtain ⟨r, hr⟩ : ∃ r : Fin 50000, r.val = 5000 * t.val + p.val := ⟨⟨5000 * t.val + p.val, by have := p.isLt; omega⟩, rfl⟩
  show k0_pay1 (F := Ideal) (iblk0 V c 0 t) (iblk0 V c 1 t) (ix2 p q)
    = Cert.Gcn.mm1 (V c main_arg0) (V c main_arg2) (((cfg0.win 2).blk t).view.emb (ix2 p q))
  rw [out_block_emb t p q r hr, Cert.Gcn.mm1_ix2]
  refine (payload_apply (iblk0 V c 0 t) (iblk0 V c 1 t) p q).trans ?_
  unfold Cert.Gcn.mm1At
  refine Finset.sum_congr rfl fun k _ => ?_
  rw [feature_block_apply V c t p k r hr, weight_block_apply V c t k q]

/-- An index of the output array is in point t's block iff each coordinate is in the block's range on its axis. -/
theorem mem_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- The ten row blocks tile the 50000 rows: row r lies in the block of point r / 5000. -/
theorem rows_covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, e0, e1⟩ := block_index t
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- After region 0's write-backs its output array is the first feature transform of the two arrays it reads. -/
theorem final0 (c : Dev nD) :
    (dat0 V c).arrAt 2 cfg0.N = Cert.Gcn.mm1 (V c main_arg0) (V c main_arg2) :=
  (dat0 V c).arrAt_eq_of_cover 2 (Cert.Gcn.mm1 (V c main_arg0) (V c main_arg2)) (fun t _ => flushed_eq V c t) rows_covered

end Cert.KernelIdeal.Region0

end
-- ==== Proof.LibColumn.lean ====
/-
  Small general lemmas: the keep-dimension column forms of a cast and a broadcast read at an index, and a lane
  maximum, a lane sum and the host's maximum-reduce over the columns of a rank-2 array read at a row.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Lib

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduced row index with the column put back is the pair. -/
theorem lift_row {n m : ℕ} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- A lane maximum of an `[n, m]` vector at row `r` is the fold of `max` over that row. -/
theorem multiReduction_max_row {n m : ℕ} (z : FVec Ideal ⟨2, ![n, m]⟩ .f32)
    (h : (⟨2, ![n, m]⟩ : Shape).Reduces [1] (⟨1, ![n]⟩ : Shape)) (hφ : FKind.Formats .f32)
    (hacc : (0xFF800000#32 : BitVec 32) = 0xFF800000#32) (r : Fin n) :
    multiReduction .maximumf [1] ⟨1, ![n]⟩ z 0xFF800000#32 h hφ hacc (ix1 r)
      = (Finset.univ : Finset (Fin m)).fold max (Ideal.ofBits .f32 0xFF800000#32) fun j => z (ix2 r j) := by
  refine (Ideal.multiReduction_maximumf_single z 0xFF800000#32 h hφ hacc (ix1 r)).trans ?_
  have hf : (z ∘ h.lift (ix1 r)) = fun k : Fin m => z (ix2 r k) := funext fun k => congrArg z (lift_row h r k)
  exact congrArg (fun f => Finset.fold max (Ideal.ofBits .f32 0xFF800000#32) f (Finset.univ : Finset (Fin m))) hf

/-- A lane sum of an `[n, m]` vector at row `r` is the sum over that row. -/
theorem multiReduction_add_row {n m : ℕ} (z : FVec Ideal ⟨2, ![n, m]⟩ .f32)
    (h : (⟨2, ![n, m]⟩ : Shape).Reduces [1] (⟨1, ![n]⟩ : Shape)) (hφ : FKind.Formats .f32)
    (hacc : (0x00000000#32 : BitVec 32) = 0x00000000#32) (r : Fin n) :
    multiReduction .add [1] ⟨1, ![n]⟩ z 0x00000000#32 h hφ hacc (ix1 r) = ∑ j : Fin m, z (ix2 r j) := by
  refine (Ideal.multiReduction_add_single z 0x00000000#32 h hφ hacc (ix1 r)).trans ?_
  exact Finset.sum_congr rfl fun k _ => congrArg z (lift_row h r k)

/-- The host's reduce with a maximum body over the columns, at row `r`: the fold of `max` over that row from the initial value. -/
theorem hostReduce_max_row {n m : ℕ} (x : FVec Ideal ⟨2, ![n, m]⟩ .f32) (init : (⟨0, ![]⟩ : Shape).Idx → EReal)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (r : Fin n) :
    Host.reduce FloatOps.maximumf x init h' hu (ix1 r) = (Finset.univ : Finset (Fin m)).fold max (init ix0) fun j => x (ix2 r j) := by
  rw [Host.reduce_eq_fold_single FloatOps.maximumf x init h' h hu]
  have hf : (x ∘ h.lift (ix1 r)) = fun k : Fin m => x (ix2 r k) := funext fun k => congrArg x (lift_row h r k)
  have hi : init (Shape.Idx.first hu) = init ix0 := congrArg init (eq_ix0 _)
  rw [hi]
  exact congrArg (fun f => Finset.fold max (init ix0) f (Finset.univ : Finset (Fin m))) hf

/-- The logarithm and the exponential of a vector at an index are those of the element. -/
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

end Cert.Lib

end
-- ==== Proof.Region1.lean ====
/-
  Region 1 (ten row blocks of 5000 nodes): each grid point combines its block of the neighbour sums with its block of
  the transformed features scaled by the column of inverse degrees, adds the bias row, rectifies, and multiplies by the
  whole 128×64 weight matrix into a zero accumulator. Every entry of the result depends on one row of the inputs only, so
  block t of the output is rows 5000·t … 5000·t+4999 of the whole-array function, and the ten blocks tile the rows.
-/
import proofs.«163376_j23003844838068_2_alg».proof.Proof.Gen.KernelIdeal.Frame
import proofs.«163376_j23003844838068_2_alg».proof.Proof.Spec
import proofs.«163376_j23003844838068_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Cert.KernelIdeal Cert.KernelIdeal.Gen
open scoped BigOperators

variable (V : (c : Dev nD) → (b : Ref sig .tc) → Buf (Elt Ideal) ((c : Thread nD τ).loc b))

/-! ## The contraction's index maps -/

/-- Row coordinate of the contraction's left index: the output's row. -/
theorem dot_lhs_row (i : S5000x64.Idx) (r : dot_S5000x128_S128x64_S5000x64_1_0_0_1_n_n.contr.Idx) :
    (dot_S5000x128_S128x64_S5000x64_1_0_0_1_n_n.lhsIdx i r 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl

/-- Column coordinate of the contraction's left index: the contracted coordinate. -/
theorem dot_lhs_col (i : S5000x64.Idx) (r : dot_S5000x128_S128x64_S5000x64_1_0_0_1_n_n.contr.Idx) :
    (dot_S5000x128_S128x64_S5000x64_1_0_0_1_n_n.lhsIdx i r 1).val = (r ⟨0, by decide⟩).val :=
  dot_S5000x128_S128x64_S5000x64_1_0_0_1_n_n.lhsIdx_val_of_single rfl i r

/-- Row coordinate of the contraction's right index: the contracted coordinate. -/
theorem dot_rhs_row (i : S5000x64.Idx) (r : dot_S5000x128_S128x64_S5000x64_1_0_0_1_n_n.contr.Idx) :
    (dot_S5000x128_S128x64_S5000x64_1_0_0_1_n_n.rhsIdx i r 0).val = (r ⟨0, by decide⟩).val :=
  dot_S5000x128_S128x64_S5000x64_1_0_0_1_n_n.rhsIdx_val_of_single rfl i r

/-- Column coordinate of the contraction's right index: the output's column. -/
theorem dot_rhs_col (i : S5000x64.Idx) (r : dot_S5000x128_S128x64_S5000x64_1_0_0_1_n_n.contr.Idx) :
    (dot_S5000x128_S128x64_S5000x64_1_0_0_1_n_n.rhsIdx i r 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- The contraction's left index at output entry (p, q) and contracted coordinate k is (p, k). -/
theorem dot_lhs (p : Fin 5000) (q : Fin 64) (k : Fin 128) :
    dot_S5000x128_S128x64_S5000x64_1_0_0_1_n_n.lhsIdx (ix2 p q)
        ((ValueIdx.contrEquiv1 dot_S5000x128_S128x64_S5000x64_1_0_0_1_n_n 128 rfl rfl).symm k) = ix2 p k := by
  have hk := ValueIdx.contrEquiv1_symm_val dot_S5000x128_S128x64_S5000x64_1_0_0_1_n_n 128 rfl rfl k
  exact funext fun a => Fin.ext (by
    match a with
    | ⟨0, _⟩ => exact dot_lhs_row _ _
    | ⟨1, _⟩ => exact (dot_lhs_col _ _).trans hk)

/-- The contraction's right index at output entry (p, q) and contracted coordinate k is (k, q). -/
theorem dot_rhs (p : Fin 5000) (q : Fin 64) (k : Fin 128) :
    dot_S5000x128_S128x64_S5000x64_1_0_0_1_n_n.rhsIdx (ix2 p q)
        ((ValueIdx.contrEquiv1 dot_S5000x128_S128x64_S5000x64_1_0_0_1_n_n 128 rfl rfl).symm k) = ix2 k q := by
  have hk := ValueIdx.contrEquiv1_symm_val dot_S5000x128_S128x64_S5000x64_1_0_0_1_n_n 128 rfl rfl k
  exact funext fun a => Fin.ext (by
    match a with
    | ⟨0, _⟩ => exact (dot_rhs_row _ _).trans hk
    | ⟨1, _⟩ => exact dot_rhs_col _ _)

/-! ## The payload at an entry -/

/-- The body's payload at entry (p, q) of a block: the sum over k of the rectified combine of row p of the loaded blocks
    at column k (neighbour sum plus feature times the row's inverse degree plus the bias) times the weight at (k, q).
    The same-shape casts and the narrowing are identities here, the column of inverse degrees is broadcast along rows
    and the bias row along columns, and the product accumulates from zero. -/
theorem pay_apply (x0 x1 : Vec Ideal S5000x128 .f32) (x2 : Vec Ideal S5000x1 .f32) (x3 : Vec Ideal S1x128 .f32)
    (x4 : Vec Ideal S128x64 .f32) (p : Fin 5000) (q : Fin 64) :
    k1_pay1 x0 x1 x2 x3 x4 (ix2 p q)
      = ∑ k : Fin 128, max (x0 (ix2 p k) + x1 (ix2 p k) * x2 (ix2 p (0 : Fin 1)) + x3 (ix2 (0 : Fin 1) k)) Cert.Gcn.zeroWord
          * x4 (ix2 k q) := by
  unfold k1_pay1
  refine (Ideal.matmul_constant_zero_apply dot_S5000x128_S128x64_S5000x64_1_0_0_1_n_n none _ _ (ix2 p q)).trans ?_
  rw [← Equiv.sum_comp (ValueIdx.contrEquiv1 dot_S5000x128_S128x64_S5000x64_1_0_0_1_n_n 128 rfl rfl).symm]
  refine Finset.sum_congr rfl fun k _ => ?_
  rw [dot_lhs, dot_rhs, shapeCast_self x0, shapeCast_self x1, shapeCast_self x2, shapeCast_self x3]
  have hd : broadcastTo S5000x128 x2 broadcasts_S5000x1_S5000x128 (ix2 p k) = x2 (ix2 p (0 : Fin 1)) :=
    Cert.Lib.broadcastTo_a1_ab_apply x2 broadcasts_S5000x1_S5000x128 p k
  have hb : broadcastTo S5000x128 x3 broadcasts_S1x128_S5000x128 (ix2 p k) = x3 (ix2 (0 : Fin 1) k) :=
    broadcastTo_1b_ab_apply x3 broadcasts_S1x128_S5000x128 p k
  show max (x0 (ix2 p k) + x1 (ix2 p k) * broadcastTo S5000x128 x2 broadcasts_S5000x1_S5000x128 (ix2 p k)
        + broadcastTo S5000x128 x3 broadcasts_S1x128_S5000x128 (ix2 p k)) Cert.Gcn.zeroWord * x4 (ix2 k q) = _
  rw [hd, hb]

/-! ## Where a block's entries sit in the arrays -/

/-- The origin of a rank-2 block, as a constant function. -/
theorem origin_zero : (![0, 0] : Fin 2 → Nat) = fun _ => 0 := funext fun a => by fin_cases a <;> rfl

/-- The index maps over the ten points: the row-blocked windows sit at block (t, 0), the whole-array windows at (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- There are ten points. -/
theorem point_lt (t : Fin cfg1.N) : t.val < 10 := Nat.lt_of_lt_of_eq t.isLt N_1

/-- Row p of block t is row 5000·t + p of the array. -/
def row (t : Fin cfg1.N) (p : Fin 5000) : Fin 50000 :=
  ⟨5000 * t.val + p.val, by have := point_lt t; have := p.isLt; omega⟩

/-- Entry (p, k) of the neighbour sums' block t is entry (5000·t + p, k) of the array. -/
theorem emb_nbr (t : Fin cfg1.N) (p : Fin 5000) (k : Fin 128) :
    ((cfg1.win 0).blk t).view.emb (ix2 p k) = ix2 (row t p) k := by
  obtain ⟨e0, e1, -⟩ := index_facts t
  funext a; apply Fin.ext
  match a with
  | ⟨0, _⟩ => show win1_0.index t (0 : Fin 2) * 5000 + 1 * p.val = 5000 * t.val + p.val; omega
  | ⟨1, _⟩ => show win1_0.index t (1 : Fin 2) * 128 + 1 * k.val = k.val; omega

/-- Entry (p, k) of the features' block t is entry (5000·t + p, k) of the array. -/
theorem emb_feat (t : Fin cfg1.N) (p : Fin 5000) (k : Fin 128) :
    ((cfg1.win 1).blk t).view.emb (ix2 p k) = ix2 (row t p) k := by
  obtain ⟨-, -, e0, e1, -⟩ := index_facts t
  funext a; apply Fin.ext
  match a with
  | ⟨0, _⟩ => show win1_1.index t (0 : Fin 2) * 5000 + 1 * p.val = 5000 * t.val + p.val; omega
  | ⟨1, _⟩ => show win1_1.index t (1 : Fin 2) * 128 + 1 * k.val = k.val; omega

/-- Entry (p, 0) of the inverse degrees' block t is entry (5000·t + p, 0) of the column. -/
theorem emb_deg (t : Fin cfg1.N) (p : Fin 5000) :
    ((cfg1.win 2).blk t).view.emb (ix2 p (0 : Fin 1)) = ix2 (row t p) (0 : Fin 1) := by
  obtain ⟨-, -, -, -, e0, e1, -⟩ := index_facts t
  funext a; apply Fin.ext
  match a with
  | ⟨0, _⟩ => show win1_2.index t (0 : Fin 2) * 5000 + 1 * p.val = 5000 * t.val + p.val; omega
  | ⟨1, _⟩ => show win1_2.index t (1 : Fin 2) * 1 + 1 * 0 = 0; omega

/-- The bias row's block is the whole row at every point. -/
theorem emb_bias (t : Fin cfg1.N) (k : Fin 128) :
    ((cfg1.win 3).blk t).view.emb (ix2 (0 : Fin 1) k) = ix2 (0 : Fin 1) k := by
  obtain ⟨-, -, -, -, -, -, e0, e1, -⟩ := index_facts t
  funext a; apply Fin.ext
  match a with
  | ⟨0, _⟩ => show win1_3.index t (0 : Fin 2) * 1 + 1 * 0 = 0; omega
  | ⟨1, _⟩ => show win1_3.index t (1 : Fin 2) * 128 + 1 * k.val = k.val; omega

/-- The weight matrix's block is the whole matrix at every point. -/
theorem emb_wt (t : Fin cfg1.N) (k : Fin 128) (q : Fin 64) :
    ((cfg1.win 4).blk t).view.emb (ix2 k q) = ix2 k q := by
  obtain ⟨-, -, -, -, -, -, -, -, e0, e1, -⟩ := index_facts t
  funext a; apply Fin.ext
  match a with
  | ⟨0, _⟩ => show win1_4.index t (0 : Fin 2) * 128 + 1 * k.val = k.val; omega
  | ⟨1, _⟩ => show win1_4.index t (1 : Fin 2) * 64 + 1 * q.val = q.val; omega

/-- Entry (p, q) of the output's block t is entry (5000·t + p, q) of the array. -/
theorem emb_out (t : Fin cfg1.N) (p : Fin 5000) (q : Fin 64) :
    ((cfg1.win 5).blk t).view.emb (ix2 p q) = ix2 (row t p) q := by
  obtain ⟨-, -, -, -, -, -, -, -, -, -, e0, e1⟩ := index_facts t
  funext a; apply Fin.ext
  match a with
  | ⟨0, _⟩ => show win1_5.index t (0 : Fin 2) * 5000 + 1 * p.val = 5000 * t.val + p.val; omega
  | ⟨1, _⟩ => show win1_5.index t (1 : Fin 2) * 64 + 1 * q.val = q.val; omega

/-! ## What a point writes back -/

/-- Entry (r, q) of the second transform of the rectified first layer, written out. -/
theorem spec_apply (a h : Cert.Gcn.Nx128.Idx → EReal) (d : Cert.Gcn.Nx1.Idx → EReal) (b : Cert.Gcn.R128.Idx → EReal)
    (w : Cert.Gcn.W128x64.Idx → EReal) (r : Fin 50000) (q : Fin 64) :
    Cert.Gcn.mm2 (Cert.Gcn.act a h d b) w (ix2 r q)
      = ∑ k : Fin 128, max (a (ix2 r k) + h (ix2 r k) * d (ix2 r (0 : Fin 1)) + b (ix2 (0 : Fin 1) k)) Cert.Gcn.zeroWord
          * w (ix2 k q) := rfl

/-- What point t writes back is block t of the second transform of the rectified first layer of the arrays. -/
theorem flushed_eq (c : Dev nD) (t : Fin cfg1.N) :
    (dat1 V c).flushed 5 t = ((cfg1.win 5).blk t).view.read (Elt Ideal)
      (Cert.Gcn.mm2 (Cert.Gcn.act (V c main_v42) (V c main_v30) (V c main_v29) (V c main_v43)) (V c main_arg4)) := by
  show (cfg1.win 5).cut (grid1.coords t) ((dat1 V c).after 5 t) = _
  rw [after1_5]
  unfold out1_5
  rw [View.canon_unit_zero origin_zero]
  simp only [View.ld_unit_zero (S := S5000x128) origin_zero, View.ld_unit_zero (S := S5000x1) origin_zero,
    View.ld_unit_zero (S := S1x128) origin_zero, View.ld_unit_zero (S := S128x64) origin_zero]
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (iblk1 V c 3 t) (iblk1 V c 4 t) (ix2 p q)
    = Cert.Gcn.mm2 (Cert.Gcn.act (V c main_v42) (V c main_v30) (V c main_v29) (V c main_v43)) (V c main_arg4)
        (((cfg1.win 5).blk t).view.emb (ix2 p q))
  refine (pay_apply _ _ _ _ _ p q).trans ?_
  refine Eq.trans ?_ (congrArg
    (Cert.Gcn.mm2 (Cert.Gcn.act (V c main_v42) (V c main_v30) (V c main_v29) (V c main_v43)) (V c main_arg4))
    (emb_out t p q)).symm
  refine Eq.trans ?_ (spec_apply _ _ _ _ _ (row t p) q).symm
  refine Finset.sum_congr rfl fun k _ => ?_
  have h0 : iblk1 V c 0 t (ix2 p k) = V c main_v42 (ix2 (row t p) k) := congrArg (V c main_v42) (emb_nbr t p k)
  have h1 : iblk1 V c 1 t (ix2 p k) = V c main_v30 (ix2 (row t p) k) := congrArg (V c main_v30) (emb_feat t p k)
  have h2 : iblk1 V c 2 t (ix2 p (0 : Fin 1)) = V c main_v29 (ix2 (row t p) (0 : Fin 1)) := congrArg (V c main_v29) (emb_deg t p)
  have h3 : iblk1 V c 3 t (ix2 (0 : Fin 1) k) = V c main_v43 (ix2 (0 : Fin 1) k) := congrArg (V c main_v43) (emb_bias t k)
  have h4 : iblk1 V c 4 t (ix2 k q) = V c main_arg4 (ix2 k q) := congrArg (V c main_arg4) (emb_wt t k q)
  rw [h0, h1, h2, h3, h4]

/-! ## The blocks tile the rows -/

/-- An index of the output array is in point t's block iff each coordinate is in the block's range on its axis. -/
theorem mem_blk (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v44).slice (win1_5.rect t)).set ↔ _
  rw [View.set_slice_whole, Rect.mem_set_unit]
  exact Iff.rfl

/-- The ten row blocks tile the rows: row r lies in the block of point r / 5000, which writes back. -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, Nat.lt_of_lt_of_eq (by omega) N_1.symm⟩, rfl⟩
  obtain ⟨-, -, -, -, -, -, -, -, -, -, e0, e1⟩ := index_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- After region 1's write-backs its output array is the second feature transform of the rectified first layer. -/
theorem final1 (c : Dev nD) :
    (dat1 V c).arrAt 5 cfg1.N
      = Cert.Gcn.mm2 (Cert.Gcn.act (V c main_v42) (V c main_v30) (V c main_v29) (V c main_v43)) (V c main_arg4) :=
  (dat1 V c).arrAt_eq_of_cover 5 _ (fun t _ => flushed_eq V c t) cover

end Cert.KernelIdeal.Region1

end
-- ==== Proof.Region2.lean ====
/-
  Region 2 (ten row blocks of 5000 nodes): each grid point adds its block of the neighbour sums to its block of the
  transformed features scaled by the column of inverse degrees, and adds the bias row. The function is entrywise, so
  block t of the output is rows 5000·t … 5000·t+4999 of the whole-array function, and the ten blocks tile the rows.
-/
import proofs.«163376_j23003844838068_2_alg».proof.Proof.Gen.KernelIdeal.Frame
import proofs.«163376_j23003844838068_2_alg».proof.Proof.Spec
import proofs.«163376_j23003844838068_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The body loads and stores every block whole: its offsets are zero on both axes. -/
theorem zero_offsets : (![0, 0] : Fin 2 → Nat) = fun _ => 0 := funext fun a => by fin_cases a <;> rfl

/-- One entry of what the body stores: the neighbour sum, plus the feature scaled by its row's inverse degree, plus
    the bias of its column. The casts are between equal shapes; the column of inverse degrees is repeated along each
    row and the bias row down each column. -/
theorem pay_apply (x0 x1 : Vec Ideal S5000x64 .f32) (x2 : Vec Ideal S5000x1 .f32) (x3 : Vec Ideal S1x64 .f32)
    (p : Fin 5000) (q : Fin 64) :
    k2_pay1 x0 x1 x2 x3 (ix2 p q)
      = x0 (ix2 p q) + x1 (ix2 p q) * x2 (ix2 p (0 : Fin 1)) + x3 (ix2 (0 : Fin 1) q) := by
  unfold k2_pay1
  simp only [shapeCast_self]
  rw [addf_apply, addf_apply, mulf_apply, Cert.Lib.broadcastTo_a1_ab_apply, broadcastTo_1b_ab_apply]

/-- So when the four blocks hold, at the entries the body reads, row `r` of the arrays (and the bias row), the stored
    entry is the combine's entry `(r, q)`. -/
theorem pay_eq_comb (a h : Cert.Gcn.Nx64.Idx → EReal) (d : Cert.Gcn.Nx1.Idx → EReal) (b : Cert.Gcn.R64.Idx → EReal)
    (x0 x1 : Vec Ideal S5000x64 .f32) (x2 : Vec Ideal S5000x1 .f32) (x3 : Vec Ideal S1x64 .f32)
    (r : Fin 50000) (p : Fin 5000) (q : Fin 64)
    (h0 : x0 (ix2 p q) = a (ix2 r q)) (h1 : x1 (ix2 p q) = h (ix2 r q))
    (h2 : x2 (ix2 p (0 : Fin 1)) = d (ix2 r (0 : Fin 1))) (h3 : x3 (ix2 (0 : Fin 1) q) = b (ix2 (0 : Fin 1) q)) :
    k2_pay1 x0 x1 x2 x3 (ix2 p q) = Cert.Gcn.comb a h d b (ix2 r q) := by
  rw [pay_apply, Cert.Gcn.comb_ix2, h0, h1, h2, h3]
  rfl

/-- The blocks' index maps, decided once over the ten grid points: the three row-blocked inputs and the output are at
    block `t` of the rows and block 0 of the columns, the bias row at block (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is block `t` of the combine of the four arrays as the region finds them. -/
theorem flushed_eq (c : Dev nD) (t : Fin cfg2.N) :
    (dat2 V c).flushed 4 t = ((cfg2.win 4).blk t).view.read (Elt Ideal)
      (Cert.Gcn.comb (V c main_v56) (V c main_v44) (V c main_v29) (V c main_v57)) := by
  show (cfg2.win 4).cut (grid2.coords t) ((dat2 V c).after 4 t) = _
  rw [after2_4]
  unfold out2_4
  rw [View.canon_unit_zero zero_offsets]
  simp only [View.ld_unit_zero (S := S5000x64) zero_offsets, View.ld_unit_zero (S := S5000x1) zero_offsets,
    View.ld_unit_zero (S := S1x64) zero_offsets]
  obtain ⟨e00, e01, e10, e11, e20, e21, e30, e31, e40, e41⟩ := index_facts t
  have ht : t.val < 10 := Nat.lt_of_lt_of_le t.isLt (Nat.le_of_eq N_2)
  funext j
  obtain ⟨p, q, rfl⟩ : ∃ (p : Fin 5000) (q : Fin 64), j = ix2 p q := ⟨j 0, j 1, eq_ix2 j⟩
  have hr : 5000 * t.val + p.val < 50000 := by have := p.isLt; omega
  refine (pay_eq_comb (V c main_v56) (V c main_v44) (V c main_v29) (V c main_v57)
    (iblk2 V c 0 t) (iblk2 V c 1 t) (iblk2 V c 2 t) (iblk2 V c 3 t) ⟨5000 * t.val + p.val, hr⟩ p q ?_ ?_ ?_ ?_).trans ?_
  · show V c main_v56 (((cfg2.win 0).blk t).view.emb (ix2 p q)) = V c main_v56 (ix2 ⟨5000 * t.val + p.val, hr⟩ q)
    refine congrArg (V c main_v56) (funext fun a => Fin.ext ?_)
    match a with
    | ⟨0, _⟩ => show win2_0.index t (0 : Fin 2) * 5000 + 1 * p.val = 5000 * t.val + p.val; omega
    | ⟨1, _⟩ => show win2_0.index t (1 : Fin 2) * 64 + 1 * q.val = q.val; omega
  · show V c main_v44 (((cfg2.win 1).blk t).view.emb (ix2 p q)) = V c main_v44 (ix2 ⟨5000 * t.val + p.val, hr⟩ q)
    refine congrArg (V c main_v44) (funext fun a => Fin.ext ?_)
    match a with
    | ⟨0, _⟩ => show win2_1.index t (0 : Fin 2) * 5000 + 1 * p.val = 5000 * t.val + p.val; omega
    | ⟨1, _⟩ => show win2_1.index t (1 : Fin 2) * 64 + 1 * q.val = q.val; omega
  · show V c main_v29 (((cfg2.win 2).blk t).view.emb (ix2 p (0 : Fin 1))) = V c main_v29 (ix2 ⟨5000 * t.val + p.val, hr⟩ (0 : Fin 1))
    refine congrArg (V c main_v29) (funext fun a => Fin.ext ?_)
    match a with
    | ⟨0, _⟩ => show win2_2.index t (0 : Fin 2) * 5000 + 1 * p.val = 5000 * t.val + p.val; omega
    | ⟨1, _⟩ => show win2_2.index t (1 : Fin 2) * 1 + 1 * 0 = 0; omega
  · show V c main_v57 (((cfg2.win 3).blk t).view.emb (ix2 (0 : Fin 1) q)) = V c main_v57 (ix2 (0 : Fin 1) q)
    refine congrArg (V c main_v57) (funext fun a => Fin.ext ?_)
    match a with
    | ⟨0, _⟩ => show win2_3.index t (0 : Fin 2) * 1 + 1 * 0 = 0; omega
    | ⟨1, _⟩ => show win2_3.index t (1 : Fin 2) * 64 + 1 * q.val = q.val; omega
  · show Cert.Gcn.comb (V c main_v56) (V c main_v44) (V c main_v29) (V c main_v57) (ix2 ⟨5000 * t.val + p.val, hr⟩ q)
      = Cert.Gcn.comb (V c main_v56) (V c main_v44) (V c main_v29) (V c main_v57) (((cfg2.win 4).blk t).view.emb (ix2 p q))
    refine congrArg (Cert.Gcn.comb (V c main_v56) (V c main_v44) (V c main_v29) (V c main_v57)) (funext fun a => Fin.ext ?_)
    match a with
    | ⟨0, _⟩ => show 5000 * t.val + p.val = win2_4.index t (0 : Fin 2) * 5000 + 1 * p.val; omega
    | ⟨1, _⟩ => show q.val = win2_4.index t (1 : Fin 2) * 64 + 1 * q.val; omega

/-- An index of the output array is in point `t`'s block iff each coordinate is in the block's range on its axis. -/
theorem mem_blk (t : Fin cfg2.N) (i : S50000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v58).slice (win2_4.rect t)).set ↔ _
  rw [View.set_slice_whole, Rect.mem_set_unit]
  exact Iff.rfl

/-- Row `r` lies in the block of point `r / 5000`, and every column in the one column block: the ten blocks tile the array. -/
theorem covered (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  have hN : (i 0).val / 5000 < cfg2.N := Nat.lt_of_lt_of_le (show (i 0).val / 5000 < 10 by omega) (Nat.le_of_eq N_2.symm)
  refine ⟨⟨(i 0).val / 5000, hN⟩, flush2_4 _, ?_⟩
  obtain ⟨-, -, -, -, -, -, -, -, e40, e41⟩ := index_facts ⟨(i 0).val / 5000, hN⟩
  rw [mem_blk]
  intro a
  match a with
  | ⟨0, _⟩ =>
    show win2_4.index ⟨(i 0).val / 5000, hN⟩ (0 : Fin 2) * 5000 ≤ (i 0).val
      ∧ (i 0).val < win2_4.index ⟨(i 0).val / 5000, hN⟩ (0 : Fin 2) * 5000 + 5000
    rw [e40]
    show (i 0).val / 5000 * 5000 ≤ (i 0).val ∧ (i 0).val < (i 0).val / 5000 * 5000 + 5000
    omega
  | ⟨1, _⟩ =>
    show win2_4.index ⟨(i 0).val / 5000, hN⟩ (1 : Fin 2) * 64 ≤ (i 1).val
      ∧ (i 1).val < win2_4.index ⟨(i 0).val / 5000, hN⟩ (1 : Fin 2) * 64 + 64
    rw [e41]
    omega

/-- After region 2's write-backs its output array is the second layer's combine of the four arrays it reads. -/
theorem final2 (c : Dev nD) :
    (dat2 V c).arrAt 4 cfg2.N = Cert.Gcn.comb (V c main_v56) (V c main_v44) (V c main_v29) (V c main_v57) :=
  (dat2 V c).arrAt_eq_of_cover 4 (Cert.Gcn.comb (V c main_v56) (V c main_v44) (V c main_v29) (V c main_v57))
    (fun t _ => flushed_eq V c t) covered

end Cert.KernelIdeal.Region2

end
-- ==== Proof.KernelValue.lean ====
/-
  The idealized kernel's result as one function of its arguments. Reading the run's last boundary backwards:
  region 2's output is the second layer's combine of what it finds; it finds the neighbour sum of region 1's output,
  that output, the column of inverse degrees and the second bias as a row; region 1's output is the second feature
  transform of the rectified first layer of what IT finds — the neighbour sum of region 0's output, that output, the
  same column, the first bias as a row, the second weight matrix —; and region 0's output is the first feature
  transform of the features and the first weight matrix.
-/
import proofs.«163376_j23003844838068_2_alg».proof.Proof.HostGlue
import proofs.«163376_j23003844838068_2_alg».proof.Proof.Region0
import proofs.«163376_j23003844838068_2_alg».proof.Proof.Region1
import proofs.«163376_j23003844838068_2_alg».proof.Proof.Region2

set_option maxRecDepth 16384

noncomputable section

namespace Cert.KernelIdeal.KValue

open Idealize.ShloMosaic Idealize.ShloMosaic.TcCoe Idealize.SL.Sem
open Cert.KernelIdeal Cert.KernelIdeal.Gen Cert.KernelIdeal.Glue

variable (m : (ℓ : Loc nD τ sig) → Buf (Elt Ideal) ℓ) (ρ : Dev nD → PrngReg)

/-- Region 0 leaves the first feature transform of the features. -/
theorem h1_eq (c : Dev nD) :
    W2 m ρ c (Proc.devRef .tc main_v30)
      = Cert.Gcn.mm1 (m ((c : Thread nD τ).loc main_arg0)) (m ((c : Thread nD τ).loc main_arg2)) := by
  refine (W2_arr m ρ c 2).trans ((Region0.final0 (V1 m ρ) c).trans ?_)
  rw [V1_arg0, V1_arg2]

/-- Region 1 leaves the second feature transform of the rectified first layer. -/
theorem h2_eq (c : Dev nD) :
    W4 m ρ c (Proc.devRef .tc main_v44)
      = Cert.Gcn.mm2
          (Cert.Gcn.act
            (agg128 (Cert.Gcn.mm1 (m ((c : Thread nD τ).loc main_arg0)) (m ((c : Thread nD τ).loc main_arg2)))
              (m ((c : Thread nD τ).loc main_arg1))
              (shapeCast _ (normV (m ((c : Thread nD τ).loc main_arg1))) shapeCasts_S800000_S800000x1))
            (Cert.Gcn.mm1 (m ((c : Thread nD τ).loc main_arg0)) (m ((c : Thread nD τ).loc main_arg2)))
            (shapeCast _ (invV (m ((c : Thread nD τ).loc main_arg1))) shapeCasts_S50000_S50000x1)
            (shapeCast _ (m ((c : Thread nD τ).loc main_arg3)) shapeCasts_S128_S1x128))
          (m ((c : Thread nD τ).loc main_arg4)) := by
  refine (W4_arr m ρ c 5).trans ((Region1.final1 (V3 m ρ) c).trans ?_)
  rw [V3_v42, V3_v30, V3_v29, V3_v43, V3_arg4, h1_eq]

/-- Region 2 leaves the second layer's combine: the program's result. -/
theorem out_eq (c : Dev nD) :
    W6 m ρ c (Proc.devRef .tc main_v58)
      = Cert.Gcn.comb
          (agg64 (W4 m ρ c (Proc.devRef .tc main_v44)) (m ((c : Thread nD τ).loc main_arg1))
            (shapeCast _ (normV (m ((c : Thread nD τ).loc main_arg1))) shapeCasts_S800000_S800000x1))
          (W4 m ρ c (Proc.devRef .tc main_v44))
          (shapeCast _ (invV (m ((c : Thread nD τ).loc main_arg1))) shapeCasts_S50000_S50000x1)
          (shapeCast _ (m ((c : Thread nD τ).loc main_arg5)) shapeCasts_S64_S1x64) := by
  refine (W6_arr m ρ c 4).trans ((Region2.final2 (V5 m ρ) c).trans ?_)
  rw [V5_v56, V5_v44, V5_v29, V5_v57]

end Cert.KernelIdeal.KValue

end
-- ==== Proof.Bridge.lean ====
/-
  The three whole-array functions of the specification are the reference's host operations, index by index, on the
  extended reals: a `dot_general` over one contracted axis is the sum over that axis; a vector reshaped to a column
  or a row and then broadcast along the other axis reads, at (p, q), the vector at p (a column) or at q (a row), and
  so does the same vector taken there by two `broadcast_in_dim`s; `maximum` against the broadcast zero is the
  entrywise maximum with zero. Last, a vector reshaped to a one-column matrix is the vector broadcast to it.
-/
import proofs.«163376_j23003844838068_2_alg».proof.Proof.Gen.ReferenceIdeal.Read
import proofs.«163376_j23003844838068_2_alg».proof.Proof.Spec
import proofs.«163376_j23003844838068_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Bridge

open Idealize.ShloMosaic Idealize.ShloMosaic.TcCoe Idealize.ShloMosaic.ValueIdx
open Cert.ReferenceIdeal Cert.ReferenceIdeal.Gen

/-! ## Broadcasts read at a pair of coordinates -/

section Layout
variable {α : Type}

/-- A vector of 50000 entries taken to a one-column matrix reads, at `(p, u)`, the vector at `p`. -/
theorem col_apply (d : S50000.Idx → α) (p : Fin 50000) (u : Fin 1) :
    broadcastInDim S50000x1 ![0] bcast_S50000_S50000x1_0 d (ix2 p u) = d (ix1 p) :=
  broadcastInDim_apply _ bcast_S50000_S50000x1_0 d (ix2 p u) (ix1 p) (fun a => match a with
    | ⟨0, _⟩ => by show p.val = if (50000 : Nat) = 1 then 0 else p.val; rw [if_neg (by decide)])

/-- A vector of 128 entries taken to a one-row matrix reads, at `(u, q)`, the vector at `q`. -/
theorem row128_apply (b : S128.Idx → α) (u : Fin 1) (q : Fin 128) :
    broadcastInDim S1x128 ![1] bcast_S128_S1x128_1 b (ix2 u q) = b (ix1 q) :=
  broadcastInDim_apply _ bcast_S128_S1x128_1 b (ix2 u q) (ix1 q) (fun a => match a with
    | ⟨0, _⟩ => by show q.val = if (128 : Nat) = 1 then 0 else q.val; rw [if_neg (by decide)])

/-- A vector of 64 entries taken to a one-row matrix reads, at `(u, q)`, the vector at `q`. -/
theorem row64_apply (b : S64.Idx → α) (u : Fin 1) (q : Fin 64) :
    broadcastInDim S1x64 ![1] bcast_S64_S1x64_1 b (ix2 u q) = b (ix1 q) :=
  broadcastInDim_apply _ bcast_S64_S1x64_1 b (ix2 u q) (ix1 q) (fun a => match a with
    | ⟨0, _⟩ => by show q.val = if (64 : Nat) = 1 then 0 else q.val; rw [if_neg (by decide)])

/-- The column of a vector, repeated along 128 columns, reads at `(p, q)` the vector at `p`. -/
theorem colBcast128_apply (d : S50000.Idx → α) (p : Fin 50000) (q : Fin 128) :
    broadcastInDim S50000x128 ![0, 1] bcast_S50000x1_S50000x128_0_1
      (broadcastInDim S50000x1 ![0] bcast_S50000_S50000x1_0 d) (ix2 p q) = d (ix1 p) :=
  (broadcastInDim_apply _ bcast_S50000x1_S50000x128_0_1 _ (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])).trans (col_apply d p 0)

/-- The column of a vector, repeated along 64 columns, reads at `(p, q)` the vector at `p`. -/
theorem colBcast64_apply (d : S50000.Idx → α) (p : Fin 50000) (q : Fin 64) :
    broadcastInDim S50000x64 ![0, 1] bcast_S50000x1_S50000x64_0_1
      (broadcastInDim S50000x1 ![0] bcast_S50000_S50000x1_0 d) (ix2 p q) = d (ix1 p) :=
  (broadcastInDim_apply _ bcast_S50000x1_S50000x64_0_1 _ (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])).trans (col_apply d p 0)

/-- The row of a vector of 128 entries, repeated along 50000 rows, reads at `(p, q)` the vector at `q`. -/
theorem rowBcast128_apply (b : S128.Idx → α) (p : Fin 50000) (q : Fin 128) :
    broadcastInDim S50000x128 ![0, 1] bcast_S1x128_S50000x128_0_1
      (broadcastInDim S1x128 ![1] bcast_S128_S1x128_1 b) (ix2 p q) = b (ix1 q) :=
  (broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans (row128_apply b 0 q)

/-- The row of a vector of 64 entries, repeated along 50000 rows, reads at `(p, q)` the vector at `q`. -/
theorem rowBcast64_apply (b : S64.Idx → α) (p : Fin 50000) (q : Fin 64) :
    broadcastInDim S50000x64 ![0, 1] bcast_S1x64_S50000x64_0_1
      (broadcastInDim S1x64 ![1] bcast_S64_S1x64_1 b) (ix2 p q) = b (ix1 q) :=
  (broadcastInDim_apply _ bcast_S1x64_S50000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans (row64_apply b 0 q)

end Layout

/-- The broadcast of the scalar zero reads, at every index, the rectifier's threshold. -/
theorem zero_apply (i : S50000x128.Idx) :
    broadcastInDim S50000x128 ![] bcast_S_S50000x128 (constant (F := Ideal) S_ .f32 0x00000000#32) i = Cert.Gcn.zeroWord :=
  (broadcastInDim_apply _ bcast_S_S50000x128 _ i ix0 (fun a => a.elim0)).trans
    (constant_apply (s := S_) (φ := .f32) 0x00000000#32 ix0)

/-! ## A matrix product read at a pair of coordinates -/

/-- The host's product of a 50000 × 128 matrix with a 128 × 64 matrix, at `(p, q)`, is the sum over the contracted axis. -/
theorem dot2_apply (y : FVec Ideal S50000x128 .f32) (w : FVec Ideal S128x64 .f32) (p : Fin 50000) (q : Fin 64) :
    Host.dotGeneral (F := Ideal) dot_S50000x128_S128x64_S50000x64_1_0_0_1_n_n none y w (ix2 p q)
      = ∑ k : Fin 128, y (ix2 p k) * w (ix2 k q) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx (ix2 p q) ((ValueIdx.contrEquiv1 dot_S50000x128_S128x64_S50000x64_1_0_0_1_n_n 128 rfl rfl).symm k) = ix2 p k := funext fun a => Fin.ext (by
    match a with
    | ⟨0, _⟩ => exact Read.lhs_main_v54_0 _ _
    | ⟨1, _⟩ => exact (Read.lhs_main_v54_1 _ _).trans hk)
  have er : dot_S50000x128_S128x64_S50000x64_1_0_0_1_n_n.rhsIdx (ix2 p q) ((ValueIdx.contrEquiv1 dot_S50000x128_S128x64_S50000x64_1_0_0_1_n_n 128 rfl rfl).symm k) = ix2 k q := funext fun a => Fin.ext (by
    match a with
    | ⟨0, _⟩ => exact (Read.rhs_main_v54_0 _ _).trans hk
    | ⟨1, _⟩ => exact Read.rhs_main_v54_1 _ _)
  rw [el, er]

/-- The first feature transform is the host's matrix product. -/
theorem mm1_eq (x : FVec Ideal S50000x128 .f32) (w : FVec Ideal S128x128 .f32) :
    Cert.Gcn.mm1 x w = Host.dotGeneral (F := Ideal) dot_S50000x128_S128x128_S50000x128_1_0_0_1_n_n none x w := by
  funext i
  obtain ⟨p, q, rfl⟩ : ∃ (p : Fin 50000) (q : Fin 128), i = ix2 p q := ⟨i 0, i 1, eq_ix2 i⟩
  rw [Cert.Gcn.mm1_ix2]
  unfold Cert.Gcn.mm1At
  refine ((Read.val_main_v4_apply x w (ix2 p q)).trans ?_).symm
  refine Finset.sum_congr rfl fun k _ => ?_
  have el : Read.lidx_main_v4 (ix2 p q) k = ix2 p k :=
    funext fun a => Fin.ext (by match a with | ⟨0, _⟩ => rfl | ⟨1, _⟩ => rfl)
  have er : Read.ridx_main_v4 (ix2 p q) k = ix2 k q :=
    funext fun a => Fin.ext (by match a with | ⟨0, _⟩ => rfl | ⟨1, _⟩ => rfl)
  rw [el, er]

/-- The rectified first layer, its inverse degrees and bias given as a reshaped column and row, is at `(p, q)` the
    host's rectified combine with the same two vectors broadcast. -/
theorem act_at (a h : FVec Ideal S50000x128 .f32) (d : FVec Ideal S50000 .f32) (b : FVec Ideal S128 .f32)
    (hd : S50000.ShapeCasts S50000x1) (hb : S128.ShapeCasts S1x128) (p : Fin 50000) (q : Fin 128) :
    Cert.Gcn.act a h (shapeCast S50000x1 d hd) (shapeCast S1x128 b hb) (ix2 p q)
      = (maximumf (F := Ideal)
          (addf (F := Ideal)
            (addf (F := Ideal) a (mulf (F := Ideal) h
              (broadcastInDim S50000x128 ![0, 1] bcast_S50000x1_S50000x128_0_1 (broadcastInDim S50000x1 ![0] bcast_S50000_S50000x1_0 d))))
            (broadcastInDim S50000x128 ![0, 1] bcast_S1x128_S50000x128_0_1 (broadcastInDim S1x128 ![1] bcast_S128_S1x128_1 b)))
          (broadcastInDim S50000x128 ![] bcast_S_S50000x128 (constant (F := Ideal) S_ .f32 0x00000000#32))) (ix2 p q) := by
  rw [Cert.Gcn.act_ix2]
  unfold Cert.Gcn.actAt
  rw [maximumf_apply, addf_apply, addf_apply, mulf_apply, colBcast128_apply, rowBcast128_apply, zero_apply,
    Cert.Lib.shapeCast_a_a1_apply, shapeCast_a_1a_apply]

/-- The second feature transform of the rectified first layer, its inverse degrees and bias given as a reshaped
    column and row, is the host's product of the host's rectified combine, the same two vectors broadcast. -/
theorem layer1_eq (a h : FVec Ideal S50000x128 .f32) (d : FVec Ideal S50000 .f32) (b : FVec Ideal S128 .f32) (w : FVec Ideal S128x64 .f32)
    (hd : S50000.ShapeCasts S50000x1) (hb : S128.ShapeCasts S1x128) :
    Cert.Gcn.mm2 (Cert.Gcn.act a h (shapeCast S50000x1 d hd) (shapeCast S1x128 b hb)) w
      = Host.dotGeneral (F := Ideal) dot_S50000x128_S128x64_S50000x64_1_0_0_1_n_n none
          (maximumf (F := Ideal)
            (addf (F := Ideal)
              (addf (F := Ideal) a (mulf (F := Ideal) h
                (broadcastInDim S50000x128 ![0, 1] bcast_S50000x1_S50000x128_0_1 (broadcastInDim S50000x1 ![0] bcast_S50000_S50000x1_0 d))))
              (broadcastInDim S50000x128 ![0, 1] bcast_S1x128_S50000x128_0_1 (broadcastInDim S1x128 ![1] bcast_S128_S1x128_1 b)))
            (broadcastInDim S50000x128 ![] bcast_S_S50000x128 (constant (F := Ideal) S_ .f32 0x00000000#32))) w := by
  funext i
  obtain ⟨p, q, rfl⟩ : ∃ (p : Fin 50000) (q : Fin 64), i = ix2 p q := ⟨i 0, i 1, eq_ix2 i⟩
  rw [Cert.Gcn.mm2_ix2, dot2_apply]
  unfold Cert.Gcn.mm2At
  exact Finset.sum_congr rfl fun k _ => congrArg (· * w (ix2 k q)) (act_at a h d b hd hb p k)

/-- The second layer's combine, its inverse degrees and bias given as a reshaped column and row, is the host's
    combine with the same two vectors broadcast. -/
theorem layer2_eq (a h : FVec Ideal S50000x64 .f32) (d : FVec Ideal S50000 .f32) (b : FVec Ideal S64 .f32)
    (hd : S50000.ShapeCasts S50000x1) (hb : S64.ShapeCasts S1x64) :
    Cert.Gcn.comb a h (shapeCast S50000x1 d hd) (shapeCast S1x64 b hb)
      = addf (F := Ideal)
          (addf (F := Ideal) a (mulf (F := Ideal) h
            (broadcastInDim S50000x64 ![0, 1] bcast_S50000x1_S50000x64_0_1 (broadcastInDim S50000x1 ![0] bcast_S50000_S50000x1_0 d))))
          (broadcastInDim S50000x64 ![0, 1] bcast_S1x64_S50000x64_0_1 (broadcastInDim S1x64 ![1] bcast_S64_S1x64_1 b)) := by
  funext i
  obtain ⟨p, q, rfl⟩ : ∃ (p : Fin 50000) (q : Fin 64), i = ix2 p q := ⟨i 0, i 1, eq_ix2 i⟩
  rw [Cert.Gcn.comb_ix2]
  unfold Cert.Gcn.combAt
  rw [addf_apply, addf_apply, mulf_apply, colBcast64_apply, rowBcast64_apply,
    Cert.Lib.shapeCast_a_a1_apply, shapeCast_a_1a_apply]

/-- A vector of edge weights reshaped to a one-column matrix is the vector broadcast to it. -/
theorem col_eq (v : FVec Ideal S800000 .f32) (hv : S800000.ShapeCasts S800000x1) :
    shapeCast S800000x1 v hv = broadcastInDim S800000x1 ![0] bcast_S800000_S800000x1_0 v := by
  funext i
  obtain ⟨p, u, rfl⟩ : ∃ (p : Fin 800000) (u : Fin 1), i = ix2 p u := ⟨i 0, i 1, eq_ix2 i⟩
  refine (Cert.Lib.shapeCast_a_a1_apply v hv p u).trans ?_
  exact (broadcastInDim_apply _ bcast_S800000_S800000x1_0 v (ix2 p u) (ix1 p) (fun a => match a with
    | ⟨0, _⟩ => by show p.val = if (800000 : Nat) = 1 then 0 else p.val; rw [if_neg (by decide)])).symm

end Cert.Gcn.Bridge

end
-- ==== Proof.Cross.lean ====
/-
  The kernel's function of its arguments is the reference's. Both programs derive the same quantities from the edge
  list — the index columns of sources and destinations, the edge weights, the inverse degrees —, the reference once
  per layer and the kernel once for both; these agree by unfolding. The kernel reshapes the edge weights to a column
  where the reference broadcasts them to one, and gives the inverse degrees and the biases to its regions as a
  reshaped column and rows where the reference broadcasts them twice; with those identified, each stage of the kernel
  is the reference's stage of the same arguments: the first feature transform, the first neighbour sum, the second
  feature transform of the rectified first layer, the second neighbour sum, the last combine.
-/
import proofs.«163376_j23003844838068_2_alg».proof.Proof.HostGlue
import proofs.«163376_j23003844838068_2_alg».proof.Proof.Bridge

set_option maxRecDepth 16384

noncomputable section

namespace Cert.Cross

open Idealize.ShloMosaic Idealize.ShloMosaic.TcCoe
open Cert.ReferenceIdeal Cert.ReferenceIdeal.Gen

variable (x : FVec Ideal S50000x128 .f32) (e : (⟨S2x800000, .i32⟩ : BufTy).Contents (Elt Ideal))
  (w1 : FVec Ideal S128x128 .f32) (b1 : FVec Ideal S128 .f32) (w2 : FVec Ideal S128x64 .f32) (b2 : FVec Ideal S64 .f32)

/-! ## What both programs derive from the edge list -/

theorem src_col : Cert.KernelIdeal.Glue.colI (Cert.KernelIdeal.Glue.wrapV (Cert.KernelIdeal.Glue.srcV e)) = Read.val_main_v32 (F := Ideal) e := rfl
theorem src_col' : Cert.KernelIdeal.Glue.colI (Cert.KernelIdeal.Glue.wrapV (Cert.KernelIdeal.Glue.srcV e)) = Read.val_main_v82 (F := Ideal) e := rfl
theorem dst_col : Cert.KernelIdeal.Glue.colI (Cert.KernelIdeal.Glue.dstV e) = Read.val_main_v38 (F := Ideal) e := rfl
theorem dst_col' : Cert.KernelIdeal.Glue.colI (Cert.KernelIdeal.Glue.dstV e) = Read.val_main_v88 (F := Ideal) e := rfl
theorem weights : Cert.KernelIdeal.Glue.normV e = Read.val_main_v26 (F := Ideal) e := rfl
theorem weights' : Cert.KernelIdeal.Glue.normV e = Read.val_main_v76 (F := Ideal) e := rfl
theorem inv_deg : Cert.KernelIdeal.Glue.invV e = Read.val_main_v41 (F := Ideal) e := rfl
theorem inv_deg' : Cert.KernelIdeal.Glue.invV e = Read.val_main_v91 (F := Ideal) e := rfl

/-! ## Stage by stage -/

/-- The first feature transform. -/
theorem stage_h1 : Cert.Gcn.mm1 x w1 = Read.val_main_v4 (F := Ideal) x w1 := Cert.Gcn.Bridge.mm1_eq x w1

/-- The first neighbour sum. -/
theorem stage_agg1 :
    Cert.KernelIdeal.Glue.agg128 (Read.val_main_v4 (F := Ideal) x w1) e
        (shapeCast _ (Cert.KernelIdeal.Glue.normV e) Cert.KernelIdeal.Facts₀.shapeCasts_S800000_S800000x1)
      = Read.val_main_v39 (F := Ideal) x e w1 := by
  rw [Cert.Gcn.Bridge.col_eq, weights]
  rfl

/-- The second feature transform of the rectified first layer. -/
theorem stage_h2 :
    Cert.Gcn.mm2 (Cert.Gcn.act (Read.val_main_v39 (F := Ideal) x e w1) (Read.val_main_v4 (F := Ideal) x w1)
        (shapeCast _ (Cert.KernelIdeal.Glue.invV e) Cert.KernelIdeal.Facts₀.shapeCasts_S50000_S50000x1)
        (shapeCast _ b1 Cert.KernelIdeal.Facts₀.shapeCasts_S128_S1x128)) w2
      = Read.val_main_v54 (F := Ideal) x e w1 b1 w2 := by
  rw [Cert.Gcn.Bridge.layer1_eq, inv_deg]
  rfl

/-- The second neighbour sum. -/
theorem stage_agg2 :
    Cert.KernelIdeal.Glue.agg64 (Read.val_main_v54 (F := Ideal) x e w1 b1 w2) e
        (shapeCast _ (Cert.KernelIdeal.Glue.normV e) Cert.KernelIdeal.Facts₀.shapeCasts_S800000_S800000x1)
      = Read.val_main_v89 (F := Ideal) x e w1 b1 w2 := by
  rw [Cert.Gcn.Bridge.col_eq, weights']
  rfl

/-- The last combine: the result. -/
theorem stage_out :
    Cert.Gcn.comb (Read.val_main_v89 (F := Ideal) x e w1 b1 w2) (Read.val_main_v54 (F := Ideal) x e w1 b1 w2)
        (shapeCast _ (Cert.KernelIdeal.Glue.invV e) Cert.KernelIdeal.Facts₀.shapeCasts_S50000_S50000x1)
        (shapeCast _ b2 Cert.KernelIdeal.Facts₀.shapeCasts_S64_S1x64)
      = Read.val_main_v98 (F := Ideal) x e w1 b1 w2 b2 := by
  rw [Cert.Gcn.Bridge.layer2_eq, inv_deg']
  rfl

end Cert.Cross

end
-- ==== Proof.lean ====
/-
  Two-layer graph convolution on 50000 nodes and 800000 edges (features 128 → 128 → 64): the Pallas program against
  its jnp reference, over the extended reals.

  Both programs compute, with deg the in-degree plus one and w(e) = rsqrt(deg src e) · rsqrt(deg dst e),
      layer(h, W, b) = A(h W) + (h W) · (1 / deg) + b,    A(g)[v, ·] = ∑ over edges e into v of g[src e, ·] · w(e),
      result = layer(max(layer(x, W1, b1), 0), W2, b2).
  The reference is host operations only. The kernel keeps the degree, the weights and the neighbour sums A on the host
  and runs the three dense steps as grid regions over ten blocks of 5000 rows: x W1; the rectified first layer
  multiplied by W2; the last combine. At the ideal instance a change of float format is the identity and a matrix
  product into a zero accumulator is the plain sum over the contracted axis, so each region's output array is the
  same whole-array function the reference's host operations compute, and the host steps in between are the same
  operations on both sides (the kernel reshapes a vector to a column or a row where the reference broadcasts it to
  one). No algebraic law beyond reading each operation at an index is needed, and nothing requires the inputs to be
  finite: the claim holds on all extended reals.

  The frames of the two kernel programs are the generated ones; the reference's frame is its generated run with the
  result dropped; the kernel's idealization rewrote nothing, so `preserves` is trivial.
-/
import proofs.«163376_j23003844838068_2_alg».proof.Defs
import proofs.«163376_j23003844838068_2_alg».proof.Proof.Gen.Kernel
import proofs.«163376_j23003844838068_2_alg».proof.Proof.Gen.Kernel.Skeleton
import proofs.«163376_j23003844838068_2_alg».proof.Proof.Gen.Kernel.Launch
import proofs.«163376_j23003844838068_2_alg».proof.Proof.Gen.Kernel.Points
import proofs.«163376_j23003844838068_2_alg».proof.Proof.Gen.Kernel.Frame
import proofs.«163376_j23003844838068_2_alg».proof.Proof.Gen.KernelIdeal
import proofs.«163376_j23003844838068_2_alg».proof.Proof.Gen.KernelIdeal.Skeleton
import proofs.«163376_j23003844838068_2_alg».proof.Proof.Gen.KernelIdeal.Launch
import proofs.«163376_j23003844838068_2_alg».proof.Proof.Gen.KernelIdeal.Points
import proofs.«163376_j23003844838068_2_alg».proof.Proof.Gen.KernelIdeal.Frame
import proofs.«163376_j23003844838068_2_alg».proof.Proof.Gen.ReferenceIdeal
import proofs.«163376_j23003844838068_2_alg».proof.Proof.Gen.ReferenceIdeal.Run
import proofs.«163376_j23003844838068_2_alg».proof.Proof.Gen.ReferenceIdeal.Read
import proofs.«163376_j23003844838068_2_alg».proof.Proof.Gen.Pre_finite_inputs
import proofs.«163376_j23003844838068_2_alg».proof.Proof.RunValue
import proofs.«163376_j23003844838068_2_alg».proof.Proof.KernelValue
import proofs.«163376_j23003844838068_2_alg».proof.Proof.Cross
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel's result array is the reference's function of the kernel's own arguments: region 2's combine of
    region 1's product of region 0's product, each met with the reference's stage. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W6 m ρ c (Proc.devRef .tc Cert.KernelIdeal.main_v58)
      = Cert.ReferenceIdeal.Read.val_main_v98 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  rw [Cert.KernelIdeal.KValue.out_eq, Cert.KernelIdeal.KValue.h2_eq,
    Cert.Cross.stage_h1 (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    Cert.Cross.stage_agg1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.Cross.stage_h2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.Cross.stage_agg2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.Cross.stage_out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))]

/-- From memories that agree on the arguments both programs run, and end with the same result array. -/
theorem algebraic : Cert.algebraic_KernelIdeal_ReferenceIdeal := by
  intro m ρ m' ρ' _ hagree
  refine ⟨_, (θ_run Cert.KernelIdeal.defs _ _).mono (fun r h c => ⟨(h c).1.trans (kernel_result m ρ c), (h c).2⟩)
    (Cert.KernelIdeal.RunValue.run_out m ρ), ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v98_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
